-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x2048 : Shape := ⟨4, ![2, 16, 2048, 2048]⟩
abbrev S2x16x2048x64 : Shape := ⟨4, ![2, 16, 2048, 64]⟩
abbrev S_ : Shape := ⟨0, ![]⟩

class Facts : Prop where
  bcast_S_S2x16x2048x2048 : S_.BroadcastsInDim S2x16x2048x2048 (![] : Fin 0 → Fin S2x16x2048x2048.rank)
  reducesTo_S2x16x2048x2048_S_d0_1_2_3 : S2x16x2048x2048.ReducesTo [0, 1, 2, 3] S_
  h_S_ : 0 < S_.numel
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_

variable [Facts]

def fn {F : FTy → Type} [FloatOps F] (main_arg0 : FVec F S2x16x2048x2048 .f32) (main_arg1 : FVec F S2x16x2048x64 .f32) : IVec S_ 1 :=
  let main_v0 : FVec F S2x16x2048x2048 .f32 := Host.absf main_arg0
  let main_cst : FVec F S_ .f32 := constant S_ .f32 0x7F800000#32
  let main_v1 : FVec F S2x16x2048x2048 .f32 := broadcastInDim S2x16x2048x2048 ![] bcast_S_S2x16x2048x2048 main_cst
  let main_v2 : IVec S2x16x2048x2048 1 := cmpf .olt main_v0 main_v1
  let main_c : IVec S_ 1 := constantI S_ 1 1#1
  let main_v3 : IVec S_ 1 := (fun x v => Host.reduce IntOp.andi x v reducesTo_S2x16x2048x2048_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  main_v8
-- ==== Kernel.lean ====
abbrev S2x16x2048x2048 : Shape := ⟨4, ![2, 16, 2048, 2048]⟩
abbrev S2x16x2048x64 : Shape := ⟨4, ![2, 16, 2048, 64]⟩
abbrev S32x2048x2048 : Shape := ⟨3, ![32, 2048, 2048]⟩
abbrev S32x2048x64 : Shape := ⟨3, ![32, 2048, 64]⟩
abbrev S1x1024x2048 : Shape := ⟨3, ![1, 1024, 2048]⟩
abbrev S1x2048x64 : Shape := ⟨3, ![1, 2048, 64]⟩
abbrev S1x1024x64 : Shape := ⟨3, ![1, 1024, 64]⟩
abbrev S1024x2048 : Shape := ⟨2, ![1024, 2048]⟩
abbrev S2048x64 : Shape := ⟨2, ![2048, 64]⟩
abbrev S1024x64 : Shape := ⟨2, ![1024, 64]⟩

abbrev nBuf : Space → Nat
  | .hbm => 6
  | .vmem => 6
  | .smem => 0
  | _ => 0

abbrev bufTy : (tb : Table) → Fin (tcTables nBuf tb) → BufTy
  | .hbm, ⟨0, _⟩ => ⟨S2x16x2048x2048, .f32⟩
  | .hbm, ⟨1, _⟩ => ⟨S2x16x2048x64, .f32⟩
  | .hbm, ⟨2, _⟩ => ⟨S32x2048x2048, .f32⟩
  | .hbm, ⟨3, _⟩ => ⟨S32x2048x64, .f32⟩
  | .hbm, ⟨4, _⟩ => ⟨S32x2048x64, .f32⟩
  | .hbm, ⟨5, _⟩ => ⟨S2x16x2048x64, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x64, .f32⟩
  | .local _ .vmem, ⟨3, _⟩ => ⟨S1x2048x64, .f32⟩
  | .local _ .vmem, ⟨4, _⟩ => ⟨S1x1024x64, .f32⟩
  | .local _ .vmem, ⟨5, _⟩ => ⟨S1x1024x64, .f32⟩
  | _, _ => ⟨S2x16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S2x16x2048x2048_S32x2048x2048 : S2x16x2048x2048.ShapeCasts S32x2048x2048
  shapeCasts_S2x16x2048x64_S32x2048x64 : S2x16x2048x64.ShapeCasts S32x2048x64
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  shapeCasts_S32x2048x64_S2x16x2048x64 : S32x2048x64.ShapeCasts S2x16x2048x64
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S32x2048x2048.size a
  hwx0_0 : ∀ i : grid0.Coords, EltTy.bits .f32 = 32 ∨ (Rect.block (s := S32x2048x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S32x2048x64.size a
  hwx0_2 : ∀ i : grid0.Coords, EltTy.bits .f32 = 32 ∨ (Rect.block (s := S32x2048x64) S1x1024x64.size (cc0_transform_2 i) (hinb0_2 i)).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x16x2048x2048 : Shape := ⟨4, ![2, 16, 2048, 2048]⟩
abbrev S2x16x2048x64 : Shape := ⟨4, ![2, 16, 2048, 64]⟩

abbrev nBuf : Space → Nat
  | .hbm => 3
  | .vmem => 0
  | .smem => 0
  | _ => 0

abbrev bufTy : (tb : Table) → Fin (tcTables nBuf tb) → BufTy
  | .hbm, ⟨0, _⟩ => ⟨S2x16x2048x2048, .f32⟩
  | .hbm, ⟨1, _⟩ => ⟨S2x16x2048x64, .f32⟩
  | .hbm, ⟨2, _⟩ => ⟨S2x16x2048x64, .f32⟩
  | _, _ => ⟨S2x16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.BatchedProduct.lean ====
/-
  The mathematics of this certificate, with no program in sight.

  Two arrays of extended reals, `a` of shape [2, 16, 2048, 2048] and `b` of shape [2, 16, 2048, 64], are read as
  32 = 2 · 16 independent pairs of matrices, a 2048 × 2048 one and a 2048 × 64 one. Their BATCHED PRODUCT is the array
  of the 32 matrix products: at (β, η, s, d) it is the sum over k < 2048 of a(β, η, s, k) · b(β, η, k, d).
  The same product can be formed after the two leading axes have been flattened into one axis of 32 (row-major:
  the pair (β, η) becomes 16 β + η); flattening the operands, multiplying, and unflattening the result gives the
  batched product again, entry by entry and term by term: nothing is re-associated, so no finiteness is needed.
-/
import Idealize.ShloMosaic.PureOps.Ideal
import Idealize.ShloMosaic.Lib.ValueIdx
import Idealize.ShloMosaic.Lib.Pipeline.Value

noncomputable section

namespace Cert.BatchedProduct

open Idealize.ShloMosaic Idealize.ShloMosaic.ValueIdx

/-- The batched product of a [2, 16, 2048, 2048] array with a [2, 16, 2048, 64] array: at (β, η, s, d) the sum
    over k of a(β, η, s, k) · b(β, η, k, d). -/
def prod4 (a : (⟨4, ![2, 16, 2048, 2048]⟩ : Shape).Idx → EReal) (b : (⟨4, ![2, 16, 2048, 64]⟩ : Shape).Idx → EReal) :
    (⟨4, ![2, 16, 2048, 64]⟩ : Shape).Idx → EReal :=
  fun i => ∑ k : Fin 2048, a (ix4 (i 0) (i 1) (i 2) k) * b (ix4 (i 0) (i 1) k (i 3))

/-- The same over one flattened batch axis of 32: at (g, s, d) the sum over k of a(g, s, k) · b(g, k, d). -/
def prod3 (a : (⟨3, ![32, 2048, 2048]⟩ : Shape).Idx → EReal) (b : (⟨3, ![32, 2048, 64]⟩ : Shape).Idx → EReal) :
    (⟨3, ![32, 2048, 64]⟩ : Shape).Idx → EReal :=
  fun j => ∑ k : Fin 2048, a (ix3 (j 0) (j 1) k) * b (ix3 (j 0) k (j 2))

/-- Flatten the two batch axes of both operands, multiply batch by batch, unflatten: the batched product. Entry
    (β, η, s, d) of the unflattened result is entry (16 β + η, s, d) of the flat product, whose k-th term reads the
    flat operands at (16 β + η, s, k) and (16 β + η, k, d), that is the operands at (β, η, s, k) and (β, η, k, d). -/
theorem unflatten_prod3_flatten
    (ha : (⟨4, ![2, 16, 2048, 2048]⟩ : Shape).ShapeCasts ⟨3, ![32, 2048, 2048]⟩)
    (hb : (⟨4, ![2, 16, 2048, 64]⟩ : Shape).ShapeCasts ⟨3, ![32, 2048, 64]⟩)
    (ho : (⟨3, ![32, 2048, 64]⟩ : Shape).ShapeCasts ⟨4, ![2, 16, 2048, 64]⟩)
    (a : (⟨4, ![2, 16, 2048, 2048]⟩ : Shape).Idx → EReal) (b : (⟨4, ![2, 16, 2048, 64]⟩ : Shape).Idx → EReal) :
    shapeCast ⟨4, ![2, 16, 2048, 64]⟩ (prod3 (shapeCast ⟨3, ![32, 2048, 2048]⟩ a ha) (shapeCast ⟨3, ![32, 2048, 64]⟩ b hb)) ho
      = prod4 a b := by
  funext i
  have h0 : (i 0).val < 2 := (i 0).isLt
  have h1 : (i 1).val < 16 := (i 1).isLt
  have h2 : (i 2).val < 2048 := (i 2).isLt
  have h3 : (i 3).val < 64 := (i 3).isLt
  -- the flat batch number of (β, η)
  have hg : (i 0).val * 16 + (i 1).val < 32 := by omega
  rw [shapeCast_apply _ ho i (ix3 (⟨(i 0).val * 16 + (i 1).val, hg⟩ : Fin 32) (i 2) (i 3)) (by
    rw [Shape.rowMajor_val_three, Shape.rowMajor_val_four]
    show (((i 0).val * 16 + (i 1).val) * 2048 + (i 2).val) * 64 + (i 3).val
      = (((i 0).val * 16 + (i 1).val) * 2048 + (i 2).val) * 64 + (i 3).val
    rfl)]
  unfold prod3 prod4
  refine Finset.sum_congr rfl fun k _ => ?_
  have hk : k.val < 2048 := k.isLt
  rw [shapeCast_apply a ha _ (ix4 (i 0) (i 1) (i 2) k) (by
      rw [Shape.rowMajor_val_three, Shape.rowMajor_val_four]
      show (((i 0).val * 16 + (i 1).val) * 2048 + (i 2).val) * 2048 + k.val
        = (((i 0).val * 16 + (i 1).val) * 2048 + (i 2).val) * 2048 + k.val
      rfl),
    shapeCast_apply b hb _ (ix4 (i 0) (i 1) k (i 3)) (by
      rw [Shape.rowMajor_val_three, Shape.rowMajor_val_four]
      show (((i 0).val * 16 + (i 1).val) * 2048 + k.val) * 64 + (i 3).val
        = (((i 0).val * 16 + (i 1).val) * 2048 + k.val) * 64 + (i 3).val
      rfl)]

end Cert.BatchedProduct

end
-- ==== Proof.BlockProduct.lean ====
/-
  What the kernel body computes on one grid point, entry by entry.

  The body loads a [1, 1024, 2048] block `x` and a [1, 2048, 64] block `w`, drops their leading unit axes, multiplies the
  1024 × 2048 matrix by the 2048 × 64 matrix into a zero accumulator, and puts the unit axis back. On the extended reals
  the product into zero is the plain sum of products (0 + s = s), so entry (0, p, q) of what it stores is
  the sum over k < 2048 of x(0, p, k) · w(0, k, q).
-/
import proofs.«180574_j88390426952068_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.ValueIdx

/-! ## The operand indices of the 1024 × 2048 by 2048 × 64 product

At output entry (p, q) and contraction position k the left operand is read at (p, k) and the right one at (k, q). -/

theorem lhs_row (j : S1024x64.Idx) (κ : dot_S1024x2048_S2048x64_S1024x64_1_0_0_1_n_n.contr.Idx) :
    (dot_S1024x2048_S2048x64_S1024x64_1_0_0_1_n_n.lhsIdx j κ 0).val = (j 0).val := by
  unfold DotDims.lhsIdx
  rw [dif_neg (show ¬(0 : Fin S1024x2048.rank) ∈ dot_S1024x2048_S2048x64_S1024x64_1_0_0_1_n_n.lhsBatch by decide),
    dif_pos (show (0 : Fin S1024x2048.rank) ∈ dot_S1024x2048_S2048x64_S1024x64_1_0_0_1_n_n.lhsNonContracting by decide)]
  rfl

theorem lhs_col (j : S1024x64.Idx) (κ : dot_S1024x2048_S2048x64_S1024x64_1_0_0_1_n_n.contr.Idx) :
    (dot_S1024x2048_S2048x64_S1024x64_1_0_0_1_n_n.lhsIdx j κ 1).val = (κ ⟨0, by decide⟩).val :=
  dot_S1024x2048_S2048x64_S1024x64_1_0_0_1_n_n.lhsIdx_val_of_single rfl j κ

theorem rhs_row (j : S1024x64.Idx) (κ : dot_S1024x2048_S2048x64_S1024x64_1_0_0_1_n_n.contr.Idx) :
    (dot_S1024x2048_S2048x64_S1024x64_1_0_0_1_n_n.rhsIdx j κ 0).val = (κ ⟨0, by decide⟩).val :=
  dot_S1024x2048_S2048x64_S1024x64_1_0_0_1_n_n.rhsIdx_val_of_single rfl j κ

theorem rhs_col (j : S1024x64.Idx) (κ : dot_S1024x2048_S2048x64_S1024x64_1_0_0_1_n_n.contr.Idx) :
    (dot_S1024x2048_S2048x64_S1024x64_1_0_0_1_n_n.rhsIdx j κ 1).val = (j 1).val := by
  unfold DotDims.rhsIdx
  rw [dif_neg (show ¬(1 : Fin S2048x64.rank) ∈ dot_S1024x2048_S2048x64_S1024x64_1_0_0_1_n_n.rhsBatch by decide),
    dif_pos (show (1 : Fin S2048x64.rank) ∈ dot_S1024x2048_S2048x64_S1024x64_1_0_0_1_n_n.rhsNonContracting by decide)]
  rfl

/-- The matrix product into a zero accumulator, at entry (p, q): the sum over k of A(p, k) · B(k, q). -/
theorem matmul_zero_apply (A : FVec Ideal S1024x2048 .f32) (B : FVec Ideal S2048x64 .f32) (j : S1024x64.Idx) :
    matmul dot_S1024x2048_S2048x64_S1024x64_1_0_0_1_n_n none A B (constant (F := Ideal) S1024x64 .f32 0x00000000#32) j
      = ∑ k : Fin 2048, A (ix2 (j 0) k) * B (ix2 k (j 1)) := by
  show FloatOps.matmul dot_S1024x2048_S2048x64_S1024x64_1_0_0_1_n_n none A B (constant (F := Ideal) S1024x64 .f32 0x00000000#32) j = _
  rw [Ideal.matmul_constant_zero_apply,
    ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx j
      ((contrEquiv1 dot_S1024x2048_S2048x64_S1024x64_1_0_0_1_n_n 2048 rfl rfl).symm k) = ix2 (j 0) k :=
    funext fun a => Fin.ext (by
      match a with
      | ⟨0, _⟩ => exact lhs_row _ _
      | ⟨1, _⟩ => exact (lhs_col _ _).trans hk)
  have er : dot_S1024x2048_S2048x64_S1024x64_1_0_0_1_n_n.rhsIdx j
      ((contrEquiv1 dot_S1024x2048_S2048x64_S1024x64_1_0_0_1_n_n 2048 rfl rfl).symm k) = ix2 k (j 1) :=
    funext fun a => Fin.ext (by
      match a with
      | ⟨0, _⟩ => exact (rhs_row _ _).trans hk
      | ⟨1, _⟩ => exact rhs_col _ _)
  rw [el, er]
  rfl

/-- The stored block at (0, p, q): the sum over k of x(0, p, k) · w(0, k, q). The unit axis put back on the result
    reads the product at (p, q); the unit axes dropped from the operands read them at (0, p, k) and (0, k, q). -/
theorem pay_apply (x : FVec Ideal S1x1024x2048 .f32) (w : FVec Ideal S1x2048x64 .f32) (p : Fin 1024) (q : Fin 64) :
    k0_pay1 (F := Ideal) x w (ix3 (0 : Fin 1) p q)
      = ∑ k : Fin 2048, x (ix3 (0 : Fin 1) p k) * w (ix3 (0 : Fin 1) k q) := by
  unfold k0_pay1
  refine (shapeCast_addUnit_apply ![1024, 64] _ _ (ix3 (0 : Fin 1) p q)).trans ?_
  refine (matmul_zero_apply _ _ _).trans ?_
  refine Finset.sum_congr rfl fun k _ => ?_
  refine congrArg₂ (· * ·) ?_ ?_
  · refine (shapeCast_dropUnit_apply ![1024, 2048] x _ _).trans (congrArg x ?_)
    funext a
    match a with
    | ⟨0, _⟩ => rfl
    | ⟨1, _⟩ => rfl
    | ⟨2, _⟩ => rfl
  · refine (shapeCast_dropUnit_apply ![2048, 64] w _ _).trans (congrArg w ?_)
    funext a
    match a with
    | ⟨0, _⟩ => rfl
    | ⟨1, _⟩ => rfl
    | ⟨2, _⟩ => rfl

end Cert.KernelIdeal.BlockProduct

end
-- ==== Proof.RowBlocks.lean ====
/-
  From what each grid point writes back to the whole output array of the kernel call.

  The call's operands are a [32, 2048, 2048] array X, a [32, 2048, 64] array W and its result a [32, 2048, 64] array.
  The grid has 32 × 2 points. Point (g, h) is handed rows 1024 h … 1024 h + 1023 of matrix g of X (all 2048 columns),
  the whole matrix g of W, and writes rows 1024 h … 1024 h + 1023 of matrix g of the result. Entry (0, p, q) of the block it
  writes is the sum over k of X(g, 1024 h + p, k) · W(g, k, q): entry (g, 1024 h + p, q) of the flat batched product of X and
  W. Every entry (g, r, q) of the result lies in exactly the block of point (g, r / 1024), so after all the
  write-backs the result array IS the flat batched product.
-/
import proofs.«180574_j88390426952068_1_alg».proof.Proof.Gen.KernelIdeal.Frame
import proofs.«180574_j88390426952068_1_alg».proof.Proof.BlockProduct
import proofs.«180574_j88390426952068_1_alg».proof.Proof.BatchedProduct

set_option maxRecDepth 16384

noncomputable section

namespace Cert.KernelIdeal.RowBlocks

open Cert.KernelIdeal Cert.KernelIdeal.Gen Idealize.ShloMosaic Idealize.ShloMosaic.TcCoe Idealize.SL.Sem
open Idealize.ShloMosaic.ValueIdx Cert.BatchedProduct Cert.KernelIdeal.BlockProduct
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl

/-! ## The index maps, decided over the 64 points -/

/-- At every point: the first operand's block has the result block's batch and row-block numbers and starts at column
    block 0; the second operand's block has the result block's batch number and is the whole matrix; the result's
    batch number is below 32, its row-block number below 2, its column-block number 0. -/
theorem idx_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (0 : Fin 3) < 32
    ∧ win0_2.index t (1 : Fin 3) < 2
    ∧ win0_2.index t (2 : Fin 3) = 0 :=
  (by decide +kernel : ∀ t : Fin grid0.N, _)

/-- Every (batch, row-block) pair is some point's. -/
theorem idx_onto : ∀ (g : Fin 32) (h : Fin 2), ∃ t : Fin cfg0.N, win0_2.index t = ![g.val, h.val, 0] :=
  (by decide +kernel : ∀ (g : Fin 32) (h : Fin 2), ∃ t : Fin grid0.N, win0_2.index t = ![g.val, h.val, 0])

/-- The batch number of point `t`. -/
def batch (t : Fin cfg0.N) : Fin 32 := ⟨win0_2.index t (0 : Fin 3), (idx_facts t).2.2.2.2.2.2.1⟩

/-- Row `p` of point `t`'s block is row 1024 h + p of the matrix, h the point's row-block number. -/
def row (t : Fin cfg0.N) (p : Fin 1024) : Fin 2048 :=
  ⟨win0_2.index t (1 : Fin 3) * 1024 + p.val, by
    have h := (idx_facts t).2.2.2.2.2.2.2.1
    have hp := p.isLt
    omega⟩

/-! ## Where each block's entries sit in its array -/

/-- Entry (0, p, q) of the result's block at `t` is entry (batch, row, q) of the result array. -/
theorem emb_out (t : Fin cfg0.N) (p : Fin 1024) (q : Fin 64) :
    ((cfg0.win 2).blk t).view.emb (ix3 (0 : Fin 1) p q) = ix3 (batch t) (row t p) q := by
  obtain ⟨e0, e1, e2, e3, e4, e5, e6, e7, e8⟩ := idx_facts t
  funext a; apply Fin.ext
  match a with
  | ⟨0, _⟩ => show win0_2.index t (0 : Fin 3) * 1 + 1 * 0 = win0_2.index t (0 : Fin 3); omega
  | ⟨1, _⟩ => show win0_2.index t (1 : Fin 3) * 1024 + 1 * p.val = win0_2.index t (1 : Fin 3) * 1024 + p.val; omega
  | ⟨2, _⟩ => show win0_2.index t (2 : Fin 3) * 64 + 1 * q.val = q.val; omega

/-- Entry (0, p, k) of the first operand's block at `t` is entry (batch, row, k) of the first operand. -/
theorem emb_lhs (t : Fin cfg0.N) (p : Fin 1024) (k : Fin 2048) :
    ((cfg0.win 0).blk t).view.emb (ix3 (0 : Fin 1) p k) = ix3 (batch t) (row t p) k := by
  obtain ⟨e0, e1, e2, e3, e4, e5, e6, e7, e8⟩ := idx_facts t
  funext a; apply Fin.ext
  match a with
  | ⟨0, _⟩ => show win0_0.index t (0 : Fin 3) * 1 + 1 * 0 = win0_2.index t (0 : Fin 3); omega
  | ⟨1, _⟩ => show win0_0.index t (1 : Fin 3) * 1024 + 1 * p.val = win0_2.index t (1 : Fin 3) * 1024 + p.val; omega
  | ⟨2, _⟩ => show win0_0.index t (2 : Fin 3) * 2048 + 1 * k.val = k.val; omega

/-- Entry (0, k, q) of the second operand's block at `t` is entry (batch, k, q) of the second operand. -/
theorem emb_rhs (t : Fin cfg0.N) (k : Fin 2048) (q : Fin 64) :
    ((cfg0.win 1).blk t).view.emb (ix3 (0 : Fin 1) k q) = ix3 (batch t) k q := by
  obtain ⟨e0, e1, e2, e3, e4, e5, e6, e7, e8⟩ := idx_facts t
  funext a; apply Fin.ext
  match a with
  | ⟨0, _⟩ => show win0_1.index t (0 : Fin 3) * 1 + 1 * 0 = win0_2.index t (0 : Fin 3); omega
  | ⟨1, _⟩ => show win0_1.index t (1 : Fin 3) * 2048 + 1 * k.val = k.val; omega
  | ⟨2, _⟩ => show win0_1.index t (2 : Fin 3) * 64 + 1 * q.val = q.val; omega

/-! ## What a point writes back -/

/-- The body's stored block at a point, entry by entry: the flat batched product of the two operand arrays, read
    where the result's block sits. -/
theorem block_entry (c : Dev nD) (t : Fin cfg0.N) (y : S1x1024x64.Idx) :
    k0_pay1 (F := Ideal) (iblk m c 0 t) (iblk m c 1 t) y
      = prod3 (V m c main_v0) (V m c main_v1) (((cfg0.win 2).blk t).view.emb y) := by
  obtain ⟨o, p, q, rfl⟩ : ∃ (o : Fin 1) (p : Fin 1024) (q : Fin 64), y = ix3 o p q := ⟨y 0, y 1, y 2, eq_ix3 y⟩
  obtain rfl : o = 0 := Subsingleton.elim _ _
  refine (pay_apply (iblk m c 0 t) (iblk m c 1 t) p q).trans ?_
  rw [emb_out]
  unfold prod3
  refine Finset.sum_congr rfl fun k _ => ?_
  refine congrArg₂ (· * ·) ?_ ?_
  · show V m c main_v0 (((cfg0.win 0).blk t).view.emb (ix3 (0 : Fin 1) p k)) = V m c main_v0 (ix3 (batch t) (row t p) k)
    rw [emb_lhs]
  · show V m c main_v1 (((cfg0.win 1).blk t).view.emb (ix3 (0 : Fin 1) k q)) = V m c main_v1 (ix3 (batch t) k q)
    rw [emb_rhs]

/-- WHAT POINT `t` WRITES BACK is block `t` of the flat batched product of the operand arrays as the call finds them. -/
theorem flushed_eq (c : Dev nD) (t : Fin cfg0.N) :
    (dats m 0 c).flushed 2 t
      = ((cfg0.win 2).blk t).view.read (Elt Ideal) (prod3 (V m c main_v0) (V m c main_v1)) := by
  show (cfg0.win 2).cut (grid0.coords t) ((dats m 0 c).after 2 t) = _
  rw [after0_2]
  unfold out0_2
  rw [View.canon_unit_zero zeros3]
  simp only [View.ld_unit_zero (S := S1x1024x2048) zeros3, View.ld_unit_zero (S := S1x2048x64) zeros3]
  funext y
  exact block_entry m c t y

/-! ## The result array after all the write-backs -/

/-- An entry of the result array is in point `t`'s block iff each coordinate is in the block's range on its axis. -/
theorem mem_blk (t : Fin cfg0.N) (i : S32x2048x64.Idx) :
    i ∈ ((cfg0.win 2).blk t).view.set ↔ ∀ a : Fin 3, win0_2.index t a * S1x1024x64.size a ≤ (i a).val
      ∧ (i a).val < win0_2.index t a * S1x1024x64.size a + S1x1024x64.size a := by
  show i ∈ ((View.whole main_v2).slice (win0_2.rect t)).set ↔ _
  rw [View.set_slice_whole, Rect.mem_set_unit]
  exact Iff.rfl

/-- Every entry (g, r, q) of the result array is in the block of the point with batch g and row-block r / 1024. -/
theorem cover (i : S32x2048x64.Idx) :
    ∃ t : Fin cfg0.N, (cfg0.win 2).flush t = true ∧ i ∈ ((cfg0.win 2).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 64 ≤ (i 2).val ∧ (i 2).val < win0_2.index t (2 : Fin 3) * 64 + 64; omega

/-- THE RESULT ARRAY after the call: the flat batched product of the operand arrays as the call finds them. -/
theorem final (c : Dev nD) :
    (dats m 0 c).arrAt 2 cfg0.N = prod3 (V m c main_v0) (V m c main_v1) :=
  (dats m 0 c).arrAt_eq_of_cover 2 _ (fun t _ => flushed_eq m c t) cover

end Cert.KernelIdeal.RowBlocks

end
-- ==== Proof.KernelValue.lean ====
/-
  The whole kernel program: two flattenings, the call, one unflattening.

  The program flattens the two leading axes of each argument ([2, 16, …] to [32, …], row-major), hands the flat arrays to
  the call, whose result array ends as their flat batched product, and unflattens that result. By the law of the
  specification this is the batched product of the arguments themselves.
-/
import proofs.«180574_j88390426952068_1_alg».proof.Proof.Gen.KernelIdeal.Frame
import proofs.«180574_j88390426952068_1_alg».proof.Proof.RowBlocks
import proofs.«180574_j88390426952068_1_alg».proof.Proof.BatchedProduct
import Idealize.ShloMosaic.Lib.StableHlo.Run

noncomputable section

namespace Cert.KernelIdeal.KernelValue

open Cert.KernelIdeal Cert.KernelIdeal.Gen Idealize.ShloMosaic Idealize.ShloMosaic.TcCoe Idealize.SL.Sem
open Idealize.ShloMosaic.StableHlo Cert.BatchedProduct Cert.KernelIdeal.RowBlocks

variable (m : (ℓ : Loc nD τ sig) → Buf (Elt Ideal) ℓ) (ρ : Dev nD → PrngReg)

/-- The call's first operand is the first argument with its two leading axes flattened. -/
theorem entry_lhs (c : Dev nD) :
    (V m c main_v0 : S32x2048x2048.Idx → EReal)
      = shapeCast S32x2048x2048 (m ((c : Thread nD τ).loc main_arg0)) shapeCasts_S2x16x2048x2048_S32x2048x2048 := by
  show StableHlo.after hostOps0 (fun b => m (c, b)) (Proc.devRef .tc main_v0) = _
  after_results
  rfl

/-- The call's second operand is the second argument with its two leading axes flattened. -/
theorem entry_rhs (c : Dev nD) :
    (V m c main_v1 : S32x2048x64.Idx → EReal)
      = shapeCast S32x2048x64 (m ((c : Thread nD τ).loc main_arg1)) shapeCasts_S2x16x2048x64_S32x2048x64 := by
  show StableHlo.after hostOps0 (fun b => m (c, b)) (Proc.devRef .tc main_v1) = _
  after_results
  rfl

/-- The program's result is the call's result array with its leading axis unflattened. -/
theorem tail_eq (c : Dev nD) :
    (Pipeline.afterTail₀ cfgs (dats m) 0 (V0 m) [hostOps1] c main_v3 : S2x16x2048x64.Idx → EReal)
      = shapeCast S2x16x2048x64 (prod3 (V m c main_v0) (V m c main_v1)) shapeCasts_S32x2048x64_S2x16x2048x64 := by
  unfold Pipeline.afterTail₀
  show StableHlo.after hostOps1 _ (Proc.devRef .tc main_v3) = _
  after_results
  -- the call's result array, among the buffers the call leaves, is what the write-backs made of it
  have e : Pipeline.withArrays (cfgs 0).spec c (V0 m c) (fun w => (dats m 0 c).arrAt w (cfgs 0).N) (Proc.devRef .tc main_v2)
      = prod3 (V m c main_v0) (V m c main_v1) :=
    (Pipeline.withArrays_arr spec0 launch0.win.arr_inj c _ _ 2).trans (final m c)
  rw [e]
  rfl

/-- The program's result, as a function of its arguments as launched: their batched product. -/
theorem value (c : Dev nD) :
    (Pipeline.afterTail₀ cfgs (dats m) 0 (V0 m) [hostOps1] c main_v3 : S2x16x2048x64.Idx → EReal)
      = prod4 (m ((c : Thread nD τ).loc main_arg0)) (m ((c : Thread nD τ).loc main_arg1)) := by
  rw [tail_eq, entry_lhs, entry_rhs]
  exact unflatten_prod3_flatten _ _ _ _ _

/-- Every weakly fair execution of the kernel program terminates with its result at the batched product of the
    arguments and the arguments unchanged. -/
theorem run : θ_run defs (onTc (τ := τ) (main (F := Ideal))) ⟨m, fun _ => 0, ρ⟩ fun r => ∀ c : Dev nD,
      r.2.mem ((c.tc : Thread nD τ).loc main_v3)
        = prod4 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 (by decide) (by decide))).trans (value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelValue

end
-- ==== Proof.ReferenceValue.lean ====
/-
  The reference's one operation, a product contracting the last axis of the first operand with the third axis of the
  second and carrying the two leading axes along as batch axes, is the batched product: at (β, η, s, d) its k-th term
  reads the operands at (β, η, s, k) and (β, η, k, d).
-/
import proofs.«180574_j88390426952068_1_alg».proof.Proof.Gen.ReferenceIdeal.Read
import proofs.«180574_j88390426952068_1_alg».proof.Proof.BatchedProduct

noncomputable section

namespace Cert.ReferenceIdeal.RefValue

open Cert.ReferenceIdeal Cert.ReferenceIdeal.Read Idealize.ShloMosaic Idealize.ShloMosaic.ValueIdx Cert.BatchedProduct

/-- The left operand's index at output entry `i` and contraction position `k`: (β, η, s, k). -/
theorem lidx_eq (i : S2x16x2048x64.Idx) (k : Fin 2048) : lidx_main_v0 i k = ix4 (i 0) (i 1) (i 2) k :=
  funext fun a => Fin.ext (by
    match a with
    | ⟨0, _⟩ => rfl
    | ⟨1, _⟩ => rfl
    | ⟨2, _⟩ => rfl
    | ⟨3, _⟩ => rfl)

/-- The right operand's: (β, η, k, d). -/
theorem ridx_eq (i : S2x16x2048x64.Idx) (k : Fin 2048) : ridx_main_v0 i k = ix4 (i 0) (i 1) k (i 3) :=
  funext fun a => Fin.ext (by
    match a with
    | ⟨0, _⟩ => rfl
    | ⟨1, _⟩ => rfl
    | ⟨2, _⟩ => rfl
    | ⟨3, _⟩ => rfl)

/-- The reference's result, as a function of its two arguments, is their batched product. -/
theorem result_eq (x0 : (⟨S2x16x2048x2048, .f32⟩ : BufTy).Contents (Elt Ideal)) (x1 : (⟨S2x16x2048x64, .f32⟩ : BufTy).Contents (Elt Ideal)) :
    val_main_v0 (F := Ideal) x0 x1 = prod4 x0 x1 := by
  funext i
  rw [val_main_v0_apply]
  unfold prod4
  refine Finset.sum_congr rfl fun k _ => ?_
  rw [lidx_eq, ridx_eq]
  rfl

end Cert.ReferenceIdeal.RefValue

end
-- ==== Proof.lean ====
/-
  A batched matrix product computed two ways.

  The arguments are x1 of shape [2, 16, 2048, 2048] and x2 of shape [2, 16, 2048, 64]; the result of both programs is the
  [2, 16, 2048, 64] array whose entry (β, η, s, d) is the sum over k < 2048 of x1(β, η, s, k) · x2(β, η, k, d).

  The reference computes it by one product that contracts the last axis of x1 with the third axis of x2 and carries the
  two leading axes as batch axes. The kernel program flattens the two leading axes into one of 32, runs a grid of 32 × 2
  points, each multiplying a 1024-row slab of one flat batch of x1 by the whole matching matrix of x2 into a zero
  accumulator and writing the 1024 × 64 slab of the result, and unflattens the result. On the extended reals the product
  into zero is the plain sum, every entry of the result is written by exactly one point, and flattening and
  unflattening only rename positions, so the two results agree entry by entry, term by term. No sum is re-associated
  and no factor is moved, so the finiteness of the inputs is not used.

  The three frame claims are the generated frame runs (the reference's is its generated run with the result forgotten);
  the idealization rewrote nothing, so the preservation claim is trivial.
-/
import proofs.«180574_j88390426952068_1_alg».proof.Defs
import proofs.«180574_j88390426952068_1_alg».proof.Proof.Gen.Kernel
import proofs.«180574_j88390426952068_1_alg».proof.Proof.Gen.Kernel.Skeleton
import proofs.«180574_j88390426952068_1_alg».proof.Proof.Gen.Kernel.Launch
import proofs.«180574_j88390426952068_1_alg».proof.Proof.Gen.Kernel.Points
import proofs.«180574_j88390426952068_1_alg».proof.Proof.Gen.Kernel.Frame
import proofs.«180574_j88390426952068_1_alg».proof.Proof.Gen.KernelIdeal
import proofs.«180574_j88390426952068_1_alg».proof.Proof.Gen.KernelIdeal.Skeleton
import proofs.«180574_j88390426952068_1_alg».proof.Proof.Gen.KernelIdeal.Launch
import proofs.«180574_j88390426952068_1_alg».proof.Proof.Gen.KernelIdeal.Points
import proofs.«180574_j88390426952068_1_alg».proof.Proof.Gen.KernelIdeal.Frame
import proofs.«180574_j88390426952068_1_alg».proof.Proof.Gen.ReferenceIdeal
import proofs.«180574_j88390426952068_1_alg».proof.Proof.Gen.Pre_finite_inputs
import proofs.«180574_j88390426952068_1_alg».proof.Proof.Gen.ReferenceIdeal.Run
import proofs.«180574_j88390426952068_1_alg».proof.Proof.Gen.ReferenceIdeal.Read
import proofs.«180574_j88390426952068_1_alg».proof.Proof.BatchedProduct
import proofs.«180574_j88390426952068_1_alg».proof.Proof.KernelValue
import proofs.«180574_j88390426952068_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end, from memories agreeing on the arguments, with the batched product of the arguments: the kernel
    program by its run read through the grid, the reference by its one operation read at an index. -/
theorem algebraic : Cert.algebraic_KernelIdeal_ReferenceIdeal := by
  intro m ρ m' ρ' _ hagree
  refine ⟨fun c => Cert.BatchedProduct.prod4
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
